-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S12x1024 : Shape := ⟨2, ![12, 1024]⟩
abbrev S12 : Shape := ⟨1, ![12]⟩
abbrev S1024x12 : Shape := ⟨2, ![1024, 12]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S12x1024 : S_.BroadcastsInDim S12x1024 (![] : Fin 0 → Fin S12x1024.rank)
  reducesTo_S12x1024_S_d0_1 : S12x1024.ReducesTo [0, 1] S_
  bcast_S_S12 : S_.BroadcastsInDim S12 (![] : Fin 0 → Fin S12.rank)
  reducesTo_S12_S_d0 : S12.ReducesTo [0] S_
  bcast_S_S1024x12 : S_.BroadcastsInDim S1024x12 (![] : Fin 0 → Fin S1024x12.rank)
  reducesTo_S1024x12_S_d0_1 : S1024x12.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x12 .f32) (main_arg5 : FVec F S1024 .f32) (main_v13 : IVec S_ 1) (main_v16 : IVec S12 1) : IVec S_ 1 :=
  let main_c_5 : IVec S_ 1 := constantI S_ 1 1#1
  let main_v17 : IVec S_ 1 := (fun x v => Host.reduce IntOp.andi x v reducesTo_S12_S_d0 h_S_) main_v16 main_c_5
  let main_v18 : IVec S_ 1 := andi main_v13 main_v17
  let main_v19 : FVec F S1024x12 .f32 := Host.absf main_arg4
  let main_cst_6 : FVec F S_ .f32 := constant S_ .f32 0x7F800000#32
  let main_v20 : FVec F S1024x12 .f32 := broadcastInDim S1024x12 ![] bcast_S_S1024x12 main_cst_6
  let main_v21 : IVec S1024x12 1 := cmpf .olt main_v19 main_v20
  let main_c_7 : IVec S_ 1 := constantI S_ 1 1#1
  let main_v22 : IVec S_ 1 := (fun x v => Host.reduce IntOp.andi x v reducesTo_S1024x12_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x2048x1024 .f32) (main_arg1 : FVec F S12x1024 .f32) (main_arg2 : FVec F S12 .f32) (main_arg3 : FVec F S12 .f32) (main_arg4 : FVec F S1024x12 .f32) (main_arg5 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S12x1024 .f32 := Host.absf main_arg1
  let main_cst_0 : FVec F S_ .f32 := constant S_ .f32 0x7F800000#32
  let main_v5 : FVec F S12x1024 .f32 := broadcastInDim S12x1024 ![] bcast_S_S12x1024 main_cst_0
  let main_v6 : IVec S12x1024 1 := cmpf .olt main_v4 main_v5
  let main_c_1 : IVec S_ 1 := constantI S_ 1 1#1
  let main_v7 : IVec S_ 1 := (fun x v => Host.reduce IntOp.andi x v reducesTo_S12x1024_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12 .f32 := Host.absf main_arg3
  let main_cst_4 : FVec F S_ .f32 := constant S_ .f32 0x7F800000#32
  let main_v15 : FVec F S12 .f32 := broadcastInDim S12 ![] bcast_S_S12 main_cst_4
  let main_v16 : IVec S12 1 := cmpf .olt main_v14 main_v15
  fn_part1 (F := F) main_arg4 main_arg5 main_v13 main_v16
-- ==== Kernel.lean ====
abbrev S8x2048x1024 : Shape := ⟨3, ![8, 2048, 1024]⟩
abbrev S12x1024 : Shape := ⟨2, ![12, 1024]⟩
abbrev S12 : Shape := ⟨1, ![12]⟩
abbrev S1024x12 : Shape := ⟨2, ![1024, 12]⟩
abbrev S1024 : Shape := ⟨1, ![1024]⟩
abbrev S16384x1024 : Shape := ⟨2, ![16384, 1024]⟩
abbrev S1x12 : Shape := ⟨2, ![1, 12]⟩
abbrev S1x1024 : Shape := ⟨2, ![1, 1024]⟩
abbrev S512x1024 : Shape := ⟨2, ![512, 1024]⟩
abbrev S512x12 : Shape := ⟨2, ![512, 12]⟩

abbrev nBuf : Space → Nat
  | .hbm => 14
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S12x1024, .f32⟩
  | .hbm, ⟨2, _⟩ => ⟨S12, .f32⟩
  | .hbm, ⟨3, _⟩ => ⟨S12, .f32⟩
  | .hbm, ⟨4, _⟩ => ⟨S1024x12, .f32⟩
  | .hbm, ⟨5, _⟩ => ⟨S1024, .f32⟩
  | .hbm, ⟨6, _⟩ => ⟨S16384x1024, .f32⟩
  | .hbm, ⟨7, _⟩ => ⟨S1024x12, .f32⟩
  | .hbm, ⟨8, _⟩ => ⟨S12x1024, .f32⟩
  | .hbm, ⟨9, _⟩ => ⟨S1x12, .f32⟩
  | .hbm, ⟨10, _⟩ => ⟨S1x12, .f32⟩
  | .hbm, ⟨11, _⟩ => ⟨S1x1024, .f32⟩
  | .hbm, ⟨12, _⟩ => ⟨S16384x1024, .f32⟩
  | .hbm, ⟨13, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x12, .f32⟩
  | .local _ .vmem, ⟨3, _⟩ => ⟨S1x12, .f32⟩
  | .local _ .vmem, ⟨4, _⟩ => ⟨S1x12, .f32⟩
  | .local _ .vmem, ⟨5, _⟩ => ⟨S12x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x2048x1024_S16384x1024 : S8x2048x1024.ShapeCasts S16384x1024
  transposes_S12x1024_S1024x12_1_0 : S12x1024.Transposes [1, 0] S1024x12
  transposes_S1024x12_S12x1024_1_0 : S1024x12.Transposes [1, 0] S12x1024
  shapeCasts_S12_S1x12 : S12.ShapeCasts S1x12
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x12_S1024x12_0_0 : ∀ a, (![0, 0] : Fin 2 → Nat) a + S1024x12.size a ≤ S1024x12.size a
  h_S1024x12 : 0 < S1024x12.numel
  shapeCasts_S1024x12_S1024x12 : S1024x12.ShapeCasts S1024x12
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S512x12 : S1x12.Broadcasts S512x12
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S8x2048x1024 : S16384x1024.ShapeCasts S8x2048x1024
  dot_S512x1024_S1024x12_S512x12_1_0_0_1_n_n_wf : DotDims.WF S512x1024 S1024x12 S512x12 [1] [0] [0] [1] [] []
  dot_S512x12_S12x1024_S512x1024_1_0_0_1_n_n_wf : DotDims.WF S512x12 S12x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x12.size a ≤ S1024x12.size a
  hwx0_1 : ∀ i : grid0.Coords, EltTy.bits .f32 = 32 ∨ (Rect.block (s := S1024x12) S1024x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x12.size a ≤ S1x12.size a
  hwx0_2 : ∀ i : grid0.Coords, EltTy.bits .f32 = 32 ∨ (Rect.block (s := S1x12) S1x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x12.size a ≤ S1x12.size a
  hwx0_3 : ∀ i : grid0.Coords, EltTy.bits .f32 = 32 ∨ (Rect.block (s := S1x12) S1x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1024.size a ≤ S12x1024.size a
  hwx0_4 : ∀ i : grid0.Coords, EltTy.bits .f32 = 32 ∨ (Rect.block (s := S12x1024) S12x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x1024_S1024x12_S512x12_1_0_0_1_n_n : DotDims S512x1024 S1024x12 S512x12 where
  lhsContracting := [1]
  rhsContracting := [0]
  lhsNonContracting := [0]
  rhsNonContracting := [1]
  lhsBatch := []
  rhsBatch := []
  wf := dot_S512x1024_S1024x12_S512x12_1_0_0_1_n_n_wf
def dot_S512x12_S12x1024_S512x1024_1_0_0_1_n_n : DotDims S512x12 S12x1024 S512x1024 where
  lhsContracting := [1]
  rhsContracting := [0]
  lhsNonContracting := [0]
  rhsNonContracting := [1]
  lhsBatch := []
  rhsBatch := []
  wf := dot_S512x12_S12x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S12x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S12x1024 : Shape := ⟨2, ![12, 1024]⟩
abbrev S12 : Shape := ⟨1, ![12]⟩
abbrev S1024x12 : Shape := ⟨2, ![1024, 12]⟩
abbrev S1024 : Shape := ⟨1, ![1024]⟩
abbrev S8x2048x12 : Shape := ⟨3, ![8, 2048, 12]⟩
abbrev S1x1x12 : Shape := ⟨3, ![1, 1, 12]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S12x1024, .f32⟩
  | .hbm, ⟨2, _⟩ => ⟨S12, .f32⟩
  | .hbm, ⟨3, _⟩ => ⟨S12, .f32⟩
  | .hbm, ⟨4, _⟩ => ⟨S1024x12, .f32⟩
  | .hbm, ⟨5, _⟩ => ⟨S1024, .f32⟩
  | .hbm, ⟨6, _⟩ => ⟨S8x2048x12, .f32⟩
  | .hbm, ⟨7, _⟩ => ⟨S1x1x12, .f32⟩
  | .hbm, ⟨8, _⟩ => ⟨S8x2048x12, .f32⟩
  | .hbm, ⟨9, _⟩ => ⟨S8x2048x12, .f32⟩
  | .hbm, ⟨10, _⟩ => ⟨S_, .f32⟩
  | .hbm, ⟨11, _⟩ => ⟨S8x2048x12, .f32⟩
  | .hbm, ⟨12, _⟩ => ⟨S8x2048x12, .f32⟩
  | .hbm, ⟨13, _⟩ => ⟨S1x1x12, .f32⟩
  | .hbm, ⟨14, _⟩ => ⟨S8x2048x12, .f32⟩
  | .hbm, ⟨15, _⟩ => ⟨S8x2048x12, .f32⟩
  | .hbm, ⟨16, _⟩ => ⟨S8x2048x12, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S12_S1x1x12_2 : S12.BroadcastsInDim S1x1x12 (![2] : Fin 1 → Fin S1x1x12.rank)
  bcast_S1x1x12_S8x2048x12_0_1_2 : S1x1x12.BroadcastsInDim S8x2048x12 (![0, 1, 2] : Fin 3 → Fin S8x2048x12.rank)
  bcast_S_S8x2048x12 : S_.BroadcastsInDim S8x2048x12 (![] : Fin 0 → Fin S8x2048x12.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  dot_S8x2048x1024_S12x1024_S8x2048x12_2_1_01_0_n_n_wf : DotDims.WF S8x2048x1024 S12x1024 S8x2048x12 [2] [1] [0, 1] [0] [] []
  dot_S8x2048x12_S1024x12_S8x2048x1024_2_1_01_0_n_n_wf : DotDims.WF S8x2048x12 S1024x12 S8x2048x1024 [2] [1] [0, 1] [0] [] []

variable [Facts₀]

def dot_S8x2048x1024_S12x1024_S8x2048x12_2_1_01_0_n_n : DotDims S8x2048x1024 S12x1024 S8x2048x12 where
  lhsContracting := [2]
  rhsContracting := [1]
  lhsNonContracting := [0, 1]
  rhsNonContracting := [0]
  lhsBatch := []
  rhsBatch := []
  wf := dot_S8x2048x1024_S12x1024_S8x2048x12_2_1_01_0_n_n_wf
def dot_S8x2048x12_S1024x12_S8x2048x1024_2_1_01_0_n_n : DotDims S8x2048x12 S1024x12 S8x2048x1024 where
  lhsContracting := [2]
  rhsContracting := [1]
  lhsNonContracting := [0, 1]
  rhsNonContracting := [0]
  lhsBatch := []
  rhsBatch := []
  wf := dot_S8x2048x12_S1024x12_S8x2048x1024_2_1_01_0_n_n_wf

class Facts : Prop extends Facts₀ where

variable [Facts]
-- ==== Proof.Spec.lean ====
/-
  The function both programs compute, on the extended reals, index by index.

  A token is a row `(b, s)` of the input `x : [8, 2048, 1024]`. Its hidden unit `f` (of 12) is
      h(b, s, f) = cos (max (Σ_k x(b, s, k) · W1(f, k) + b1(f), 0) + θ(f)),
  a linear layer over the 1024 features, a ReLU, a shift by the angle `θ(f)`, and a cosine. The output is
      out(b, s, e) = Σ_f h(b, s, f) · W2(e, f) + b2(e),
  a second linear layer back to the 1024 features. The zero of the ReLU is kept as the f32 zero word: both
  programs spell the same word there, so it is never evaluated.
-/
import Idealize.ShloMosaic.PureOps.Ideal
import Idealize.ShloMosaic.Lib.ValueIdx

noncomputable section

open scoped BigOperators

namespace Cert.Ffn

open Idealize.ShloMosaic Idealize.ShloMosaic.ValueIdx

/-- Hidden unit `f` of token `(b, s)`: the first linear layer, the ReLU, the angle shift, the cosine. -/
def hidden (x : (⟨3, ![8, 2048, 1024]⟩ : Shape).Idx → EReal) (W1 : (⟨2, ![12, 1024]⟩ : Shape).Idx → EReal)
    (b1 θ : (⟨1, ![12]⟩ : Shape).Idx → EReal) (b : Fin 8) (s : Fin 2048) (f : Fin 12) : EReal :=
  Ideal.cos (max ((∑ k : Fin 1024, x (ix3 b s k) * W1 (ix2 f k)) + b1 (ix1 f)) (Ideal.ofBits .f32 0x00000000#32)
    + θ (ix1 f))

/-- The output array: the second linear layer over the 12 hidden units of each token. -/
def output (x : (⟨3, ![8, 2048, 1024]⟩ : Shape).Idx → EReal) (W1 : (⟨2, ![12, 1024]⟩ : Shape).Idx → EReal)
    (b1 θ : (⟨1, ![12]⟩ : Shape).Idx → EReal) (W2 : (⟨2, ![1024, 12]⟩ : Shape).Idx → EReal)
    (b2 : (⟨1, ![1024]⟩ : Shape).Idx → EReal) : (⟨3, ![8, 2048, 1024]⟩ : Shape).Idx → EReal := fun i =>
  (∑ f : Fin 12, hidden x W1 b1 θ (i 0) (i 1) f * W2 (ix2 (i 2) f)) + b2 (ix1 (i 2))

end Cert.Ffn

end
-- ==== Proof.RefSpec.lean ====
/-
  The reference computes `Cert.Ffn.output`: its two einsums are the two sums of the specification (the first
  contracts the feature axis of `x` against the feature axis of `W1`, the second the hidden axis against the
  hidden axis of `W2`), its biases and the angle are broadcast along the token axes, and the host's cosine is
  the extended reals' cosine, as the kernel's is.
-/
import proofs.«111083_j65481071396395_2_alg».proof.Proof.Gen.ReferenceIdeal.Read
import proofs.«111083_j65481071396395_2_alg».proof.Proof.Spec

noncomputable section

open scoped BigOperators

namespace Cert.Ffn.Ref

open Cert.ReferenceIdeal Cert.ReferenceIdeal.Read Idealize.ShloMosaic Idealize.ShloMosaic.ValueIdx

/-- The reference's hidden stage (after the cosine) at a token and a hidden unit. -/
theorem hidden_eq (x0 : FVec Ideal S8x2048x1024 .f32) (x1 : FVec Ideal S12x1024 .f32) (x2 x3 : FVec Ideal S12 .f32)
    (j : S8x2048x12.Idx) :
    val_main_v8 (F := Ideal) x0 x1 x2 x3 j = hidden x0 x1 x2 x3 (j 0) (j 1) (j 2) := by
  have el : ∀ k : Fin 1024, lidx_main_v0 j k = ix3 (j 0) (j 1) k := fun k =>
    funext fun a => Fin.ext (by match a with | ⟨0, _⟩ => rfl | ⟨1, _⟩ => rfl | ⟨2, _⟩ => rfl)
  have er : ∀ k : Fin 1024, ridx_main_v0 j k = ix2 (j 2) k := fun k =>
    funext fun a => Fin.ext (by match a with | ⟨0, _⟩ => rfl | ⟨1, _⟩ => rfl)
  have e2 : idx_main_v1 (idx_main_v2 j) = ix1 (j 2) :=
    funext fun a => Fin.ext (by match a with | ⟨0, _⟩ => rfl)
  have e3 : idx_main_v5 (idx_main_v6 j) = ix1 (j 2) :=
    funext fun a => Fin.ext (by match a with | ⟨0, _⟩ => rfl)
  rw [val_main_v8_apply, val_main_v7_apply, val_main_v4_apply, val_main_v3_apply, val_main_v0_apply,
    val_main_v2_apply, val_main_v1_apply, val_main_call0_v0_apply, val_main_call0_cst_apply,
    val_main_v6_apply, val_main_v5_apply, e2, e3]
  simp only [el, er]
  rfl

/-- The reference's result is the specification's output. -/
theorem result_eq (x0 : FVec Ideal S8x2048x1024 .f32) (x1 : FVec Ideal S12x1024 .f32) (x2 x3 : FVec Ideal S12 .f32)
    (x4 : FVec Ideal S1024x12 .f32) (x5 : FVec Ideal S1024 .f32) :
    val_main_v12 (F := Ideal) x0 x1 x2 x3 x4 x5 = output x0 x1 x2 x3 x4 x5 := by
  funext i
  have el : ∀ f : Fin 12, ridx_main_v9 i f = ix2 (i 2) f := fun f =>
    funext fun a => Fin.ext (by match a with | ⟨0, _⟩ => rfl | ⟨1, _⟩ => rfl)
  have e5 : idx_main_v10 (idx_main_v11 i) = ix1 (i 2) :=
    funext fun a => Fin.ext (by match a with | ⟨0, _⟩ => rfl)
  rw [val_main_v12_apply, val_main_v9_apply, val_main_v11_apply, val_main_v10_apply, e5]
  simp only [hidden_eq, el]
  rfl

end Cert.Ffn.Ref

end
-- ==== Proof.Body.lean ====
/-
  What the kernel's body stores, read at one element of its block.

  The body holds 512 tokens (rows of a `[512, 1024]` block) at a time. Both of its matrix products start from
  a zero accumulator, so each is the plain sum over its one contracted axis: the first over the 1024 features
  against the transposed first weight `[1024, 12]`, the second over the 12 hidden units against the transposed
  second weight `[12, 1024]`. The two biases and the angle are single rows broadcast over the 512 tokens.
-/
import proofs.«111083_j65481071396395_2_alg».proof.Proof.Gen.KernelIdeal.Skeleton
import proofs.«111083_j65481071396395_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Ffn.Body

open Cert.KernelIdeal Cert.KernelIdeal.Gen Idealize.ShloMosaic Idealize.ShloMosaic.ValueIdx

theorem first_product_apply_lhs0 (i : S512x12.Idx) (r : dot_S512x1024_S1024x12_S512x12_1_0_0_1_n_n.contr.Idx) :
    (dot_S512x1024_S1024x12_S512x12_1_0_0_1_n_n.lhsIdx i r 0).val = (i 0).val := by
  unfold DotDims.lhsIdx
  rw [dif_neg (show ¬(0 : Fin S512x1024.rank) ∈ dot_S512x1024_S1024x12_S512x12_1_0_0_1_n_n.lhsBatch by decide),
    dif_pos (show (0 : Fin S512x1024.rank) ∈ dot_S512x1024_S1024x12_S512x12_1_0_0_1_n_n.lhsNonContracting by decide)]
  rfl
theorem first_product_apply_lhs1 (i : S512x12.Idx) (r : dot_S512x1024_S1024x12_S512x12_1_0_0_1_n_n.contr.Idx) :
    (dot_S512x1024_S1024x12_S512x12_1_0_0_1_n_n.lhsIdx i r 1).val = (r ⟨0, by decide⟩).val :=
  dot_S512x1024_S1024x12_S512x12_1_0_0_1_n_n.lhsIdx_val_of_single rfl i r
theorem first_product_apply_rhs0 (i : S512x12.Idx) (r : dot_S512x1024_S1024x12_S512x12_1_0_0_1_n_n.contr.Idx) :
    (dot_S512x1024_S1024x12_S512x12_1_0_0_1_n_n.rhsIdx i r 0).val = (r ⟨0, by decide⟩).val :=
  dot_S512x1024_S1024x12_S512x12_1_0_0_1_n_n.rhsIdx_val_of_single rfl i r
theorem first_product_apply_rhs1 (i : S512x12.Idx) (r : dot_S512x1024_S1024x12_S512x12_1_0_0_1_n_n.contr.Idx) :
    (dot_S512x1024_S1024x12_S512x12_1_0_0_1_n_n.rhsIdx i r 1).val = (i 1).val := by
  unfold DotDims.rhsIdx
  rw [dif_neg (show ¬(1 : Fin S1024x12.rank) ∈ dot_S512x1024_S1024x12_S512x12_1_0_0_1_n_n.rhsBatch by decide),
    dif_pos (show (1 : Fin S1024x12.rank) ∈ dot_S512x1024_S1024x12_S512x12_1_0_0_1_n_n.rhsNonContracting by decide)]
  rfl
/-- The first product, into zero: token `p`'s features against column `q` of the transposed first weight. -/
theorem first_product_apply (a : FVec Ideal S512x1024 .f32) (w : FVec Ideal S1024x12 .f32) (p : Fin 512) (q : Fin 12) :
    matmul dot_S512x1024_S1024x12_S512x12_1_0_0_1_n_n none a w (constant (F := Ideal) S512x12 .f32 0x00000000#32) (ix2 p q)
      = ∑ k : Fin 1024, a (ix2 p k) * w (ix2 k q) := by
  simp only [matmul]
  rw [Ideal.matmul_constant_zero_apply, ← Equiv.sum_comp (contrEquiv1 dot_S512x1024_S1024x12_S512x12_1_0_0_1_n_n 1024 rfl rfl).symm]
  refine Finset.sum_congr rfl fun k _ => ?_
  have hk := contrEquiv1_symm_val dot_S512x1024_S1024x12_S512x12_1_0_0_1_n_n 1024 rfl rfl k
  have el : dot_S512x1024_S1024x12_S512x12_1_0_0_1_n_n.lhsIdx (ix2 p q) ((contrEquiv1 dot_S512x1024_S1024x12_S512x12_1_0_0_1_n_n 1024 rfl rfl).symm k) = ix2 p k :=
    funext fun c => Fin.ext (by
      match c with
      | ⟨0, _⟩ => exact first_product_apply_lhs0 _ _
      | ⟨1, _⟩ => exact (first_product_apply_lhs1 _ _).trans hk)
  have er : dot_S512x1024_S1024x12_S512x12_1_0_0_1_n_n.rhsIdx (ix2 p q) ((contrEquiv1 dot_S512x1024_S1024x12_S512x12_1_0_0_1_n_n 1024 rfl rfl).symm k) = ix2 k q :=
    funext fun c => Fin.ext (by
      match c with
      | ⟨0, _⟩ => exact (first_product_apply_rhs0 _ _).trans hk
      | ⟨1, _⟩ => exact first_product_apply_rhs1 _ _)
  rw [el, er]

theorem second_product_apply_lhs0 (i : S512x1024.Idx) (r : dot_S512x12_S12x1024_S512x1024_1_0_0_1_n_n.contr.Idx) :
    (dot_S512x12_S12x1024_S512x1024_1_0_0_1_n_n.lhsIdx i r 0).val = (i 0).val := by
  unfold DotDims.lhsIdx
  rw [dif_neg (show ¬(0 : Fin S512x12.rank) ∈ dot_S512x12_S12x1024_S512x1024_1_0_0_1_n_n.lhsBatch by decide),
    dif_pos (show (0 : Fin S512x12.rank) ∈ dot_S512x12_S12x1024_S512x1024_1_0_0_1_n_n.lhsNonContracting by decide)]
  rfl
theorem second_product_apply_lhs1 (i : S512x1024.Idx) (r : dot_S512x12_S12x1024_S512x1024_1_0_0_1_n_n.contr.Idx) :
    (dot_S512x12_S12x1024_S512x1024_1_0_0_1_n_n.lhsIdx i r 1).val = (r ⟨0, by decide⟩).val :=
  dot_S512x12_S12x1024_S512x1024_1_0_0_1_n_n.lhsIdx_val_of_single rfl i r
theorem second_product_apply_rhs0 (i : S512x1024.Idx) (r : dot_S512x12_S12x1024_S512x1024_1_0_0_1_n_n.contr.Idx) :
    (dot_S512x12_S12x1024_S512x1024_1_0_0_1_n_n.rhsIdx i r 0).val = (r ⟨0, by decide⟩).val :=
  dot_S512x12_S12x1024_S512x1024_1_0_0_1_n_n.rhsIdx_val_of_single rfl i r
theorem second_product_apply_rhs1 (i : S512x1024.Idx) (r : dot_S512x12_S12x1024_S512x1024_1_0_0_1_n_n.contr.Idx) :
    (dot_S512x12_S12x1024_S512x1024_1_0_0_1_n_n.rhsIdx i r 1).val = (i 1).val := by
  unfold DotDims.rhsIdx
  rw [dif_neg (show ¬(1 : Fin S12x1024.rank) ∈ dot_S512x12_S12x1024_S512x1024_1_0_0_1_n_n.rhsBatch by decide),
    dif_pos (show (1 : Fin S12x1024.rank) ∈ dot_S512x12_S12x1024_S512x1024_1_0_0_1_n_n.rhsNonContracting by decide)]
  rfl
/-- The second product, into zero: token `p`'s hidden units against column `q` of the transposed second weight. -/
theorem second_product_apply (a : FVec Ideal S512x12 .f32) (w : FVec Ideal S12x1024 .f32) (p : Fin 512) (q : Fin 1024) :
    matmul dot_S512x12_S12x1024_S512x1024_1_0_0_1_n_n none a w (constant (F := Ideal) S512x1024 .f32 0x00000000#32) (ix2 p q)
      = ∑ k : Fin 12, a (ix2 p k) * w (ix2 k q) := by
  simp only [matmul]
  rw [Ideal.matmul_constant_zero_apply, ← Equiv.sum_comp (contrEquiv1 dot_S512x12_S12x1024_S512x1024_1_0_0_1_n_n 12 rfl rfl).symm]
  refine Finset.sum_congr rfl fun k _ => ?_
  have hk := contrEquiv1_symm_val dot_S512x12_S12x1024_S512x1024_1_0_0_1_n_n 12 rfl rfl k
  have el : dot_S512x12_S12x1024_S512x1024_1_0_0_1_n_n.lhsIdx (ix2 p q) ((contrEquiv1 dot_S512x12_S12x1024_S512x1024_1_0_0_1_n_n 12 rfl rfl).symm k) = ix2 p k :=
    funext fun c => Fin.ext (by
      match c with
      | ⟨0, _⟩ => exact second_product_apply_lhs0 _ _
      | ⟨1, _⟩ => exact (second_product_apply_lhs1 _ _).trans hk)
  have er : dot_S512x12_S12x1024_S512x1024_1_0_0_1_n_n.rhsIdx (ix2 p q) ((contrEquiv1 dot_S512x12_S12x1024_S512x1024_1_0_0_1_n_n 12 rfl rfl).symm k) = ix2 k q :=
    funext fun c => Fin.ext (by
      match c with
      | ⟨0, _⟩ => exact (second_product_apply_rhs0 _ _).trans hk
      | ⟨1, _⟩ => exact second_product_apply_rhs1 _ _)
  rw [el, er]

/-- The stored value at token `p` (of the block) and feature `q`. -/
theorem payload_apply (x0 : Vec Ideal S512x1024 .f32) (x1 : Vec Ideal S1024x12 .f32) (x4 : Vec Ideal S12x1024 .f32)
    (x2 x3 : Vec Ideal S1x12 .f32) (x5 : Vec Ideal S1x1024 .f32) (p : Fin 512) (q : Fin 1024) :
    k0_pay1 (F := Ideal) x0 x1 x4 x2 x3 x5 (ix2 p q)
      = (∑ f : Fin 12, Ideal.cos (max ((∑ k : Fin 1024, x0 (ix2 p k) * x1 (ix2 k f)) + x2 (ix2 (0 : Fin 1) f))
            (Ideal.ofBits .f32 0x00000000#32) + x3 (ix2 (0 : Fin 1) f)) * x4 (ix2 f q))
        + x5 (ix2 (0 : Fin 1) q) := by
  unfold k0_pay1
  simp only [shapeCast_self]
  rw [addf_apply, second_product_apply, broadcastTo_1b_ab_apply]
  refine congrArg (· + x5 (ix2 (0 : Fin 1) q)) (Finset.sum_congr rfl fun f _ => ?_)
  refine congrArg (· * x4 (ix2 f q)) ?_
  show Ideal.cos (max (matmul dot_S512x1024_S1024x12_S512x12_1_0_0_1_n_n none x0 x1 (constant (F := Ideal) S512x12 .f32 0x00000000#32) (ix2 p f)
      + broadcastTo S512x12 x2 broadcasts_S1x12_S512x12 (ix2 p f)) (Ideal.ofBits .f32 0x00000000#32)
      + broadcastTo S512x12 x3 broadcasts_S1x12_S512x12 (ix2 p f)) = _
  rw [first_product_apply, broadcastTo_1b_ab_apply, broadcastTo_1b_ab_apply]

/-- When the body's six loaded blocks hold token `(b, s)`'s features in row `p`, the two weights transposed, and the
    biases and the angle as single rows, the stored value at `(p, q)` is the specification's output for that token at
    feature `q`: after the transposes are undone the two sums are the specification's, term by term. -/
theorem token_value (X : (⟨3, ![8, 2048, 1024]⟩ : Shape).Idx → EReal) (W1 : (⟨2, ![12, 1024]⟩ : Shape).Idx → EReal)
    (b1 θ : (⟨1, ![12]⟩ : Shape).Idx → EReal) (W2 : (⟨2, ![1024, 12]⟩ : Shape).Idx → EReal)
    (b2 : (⟨1, ![1024]⟩ : Shape).Idx → EReal)
    (x0 : Vec Ideal S512x1024 .f32) (x1 : Vec Ideal S1024x12 .f32) (x4 : Vec Ideal S12x1024 .f32)
    (x2 x3 : Vec Ideal S1x12 .f32) (x5 : Vec Ideal S1x1024 .f32)
    (b : Fin 8) (s : Fin 2048) (p : Fin 512) (q : Fin 1024)
    (h0 : ∀ k, x0 (ix2 p k) = X (ix3 b s k)) (h1 : ∀ k f, x1 (ix2 k f) = W1 (ix2 f k))
    (h2 : ∀ f, x2 (ix2 (0 : Fin 1) f) = b1 (ix1 f)) (h3 : ∀ f, x3 (ix2 (0 : Fin 1) f) = θ (ix1 f))
    (h4 : ∀ f, x4 (ix2 f q) = W2 (ix2 q f)) (h5 : x5 (ix2 (0 : Fin 1) q) = b2 (ix1 q)) :
    k0_pay1 (F := Ideal) x0 x1 x4 x2 x3 x5 (ix2 p q) = Cert.Ffn.output X W1 b1 θ W2 b2 (ix3 b s q) := by
  rw [payload_apply]
  simp only [h0, h1, h2, h3, h4, h5]
  rfl

end Cert.Ffn.Body

end
-- ==== Proof.Entry.lean ====
/-
  The arrays the kernel's region finds: each is one host re-layout of an argument array.

  The input `x : [8, 2048, 1024]` is flattened to `[16384, 1024]`: row `r` is token `(r / 2048, r % 2048)`.
  The two weights are transposed; the two biases and the angle become single rows.
-/
import proofs.«111083_j65481071396395_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.Ffn.Entry

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The flattened input. -/
theorem flat_x (c : Dev nD) :
    (V m c main_v0 : S16384x1024.Idx → Elt F .f32)
      = shapeCast S16384x1024 (m ((c : Thread nD τ).loc main_arg0)) shapeCasts_S8x2048x1024_S16384x1024 := by
  show StableHlo.after hostOps0 (fun b => m (c, b)) (Proc.devRef .tc main_v0) = _
  after_results <;> rfl

/-- Row `r` of the flattened input is token `(r / 2048, r % 2048)`. -/
theorem flat_x_apply (c : Dev nD) (r : Fin 16384) (k : Fin 1024) (b : Fin 8) (s : Fin 2048)
    (hr : r.val = b.val * 2048 + s.val) :
    (V m c main_v0 : S16384x1024.Idx → Elt F .f32) (ix2 r k) = m ((c : Thread nD τ).loc main_arg0) (ix3 b s k) := by
  rw [flat_x]
  refine shapeCast_apply _ _ _ _ ?_
  show (S8x2048x1024.rowMajor (ix3 b s k)).val = (S16384x1024.rowMajor (ix2 r k)).val
  rw [Shape.rowMajor_val_three, Shape.rowMajor_val_two]
  show (b.val * 2048 + s.val) * 1024 + k.val = r.val * 1024 + k.val
  rw [hr]

/-- The transposed first weight. -/
theorem w1t_apply (c : Dev nD) (k : Fin 1024) (f : Fin 12) :
    (V m c main_v1 : S1024x12.Idx → Elt F .f32) (ix2 k f) = m ((c : Thread nD τ).loc main_arg1) (ix2 f k) := by
  have e : (V m c main_v1 : S1024x12.Idx → Elt F .f32)
      = transpose S1024x12 [1, 0] (m ((c : Thread nD τ).loc main_arg1)) transposes_S12x1024_S1024x12_1_0 := by
    show StableHlo.after hostOps0 (fun b => m (c, b)) (Proc.devRef .tc main_v1) = _
    after_results <;> rfl
  rw [e]
  exact transpose_ix2_apply _ _ k f

/-- The transposed second weight. -/
theorem w2t_apply (c : Dev nD) (f : Fin 12) (q : Fin 1024) :
    (V m c main_v2 : S12x1024.Idx → Elt F .f32) (ix2 f q) = m ((c : Thread nD τ).loc main_arg4) (ix2 q f) := by
  have e : (V m c main_v2 : S12x1024.Idx → Elt F .f32)
      = transpose S12x1024 [1, 0] (m ((c : Thread nD τ).loc main_arg4)) transposes_S1024x12_S12x1024_1_0 := by
    show StableHlo.after hostOps0 (fun b => m (c, b)) (Proc.devRef .tc main_v2) = _
    after_results <;> rfl
  rw [e]
  exact transpose_ix2_apply _ _ f q

/-- The first bias as a row. -/
theorem b1_apply (c : Dev nD) (u : Fin 1) (f : Fin 12) :
    (V m c main_v3 : S1x12.Idx → Elt F .f32) (ix2 u f) = m ((c : Thread nD τ).loc main_arg2) (ix1 f) := by
  have e : (V m c main_v3 : S1x12.Idx → Elt F .f32)
      = shapeCast S1x12 (m ((c : Thread nD τ).loc main_arg2)) shapeCasts_S12_S1x12 := by
    show StableHlo.after hostOps0 (fun b => m (c, b)) (Proc.devRef .tc main_v3) = _
    after_results <;> rfl
  rw [e]
  exact shapeCast_a_1a_apply _ _ u f

/-- The angle as a row. -/
theorem theta_apply (c : Dev nD) (u : Fin 1) (f : Fin 12) :
    (V m c main_v4 : S1x12.Idx → Elt F .f32) (ix2 u f) = m ((c : Thread nD τ).loc main_arg3) (ix1 f) := by
  have e : (V m c main_v4 : S1x12.Idx → Elt F .f32)
      = shapeCast S1x12 (m ((c : Thread nD τ).loc main_arg3)) shapeCasts_S12_S1x12 := by
    show StableHlo.after hostOps0 (fun b => m (c, b)) (Proc.devRef .tc main_v4) = _
    after_results <;> rfl
  rw [e]
  exact shapeCast_a_1a_apply _ _ u f

/-- The second bias as a row. -/
theorem b2_apply (c : Dev nD) (u : Fin 1) (q : Fin 1024) :
    (V m c main_v5 : S1x1024.Idx → Elt F .f32) (ix2 u q) = m ((c : Thread nD τ).loc main_arg5) (ix1 q) := by
  have e : (V m c main_v5 : S1x1024.Idx → Elt F .f32)
      = shapeCast S1x1024 (m ((c : Thread nD τ).loc main_arg5)) shapeCasts_S1024_S1x1024 := by
    show StableHlo.after hostOps0 (fun b => m (c, b)) (Proc.devRef .tc main_v5) = _
    after_results <;> rfl
  rw [e]
  exact shapeCast_a_1a_apply _ _ u q

end Cert.Ffn.Entry

end
-- ==== Proof.Blocks.lean ====
/-
  From blocks to the array: the kernel's output array after all 32 grid points.

  Grid point `t` stages rows `512 t … 512 t + 511` of the flattened input and writes back the same rows of
  the flattened output; the five small operands are staged whole at every point. Row `r` of the flattened
  arrays is token `(r / 2048, r % 2048)`, so what point `t` writes back is its block of ONE array, the
  specification's output flattened to `[16384, 1024]`; the 32 blocks tile the rows, so the array ends equal to it.
-/
import proofs.«111083_j65481071396395_2_alg».proof.Proof.Gen.KernelIdeal.Frame
import proofs.«111083_j65481071396395_2_alg».proof.Proof.Spec
import proofs.«111083_j65481071396395_2_alg».proof.Proof.Body
import proofs.«111083_j65481071396395_2_alg».proof.Proof.Entry
import Idealize.ShloMosaic.Lib.Pipeline.Value
import Idealize.ShloMosaic.Lib.ValueIdx

set_option maxRecDepth 16384

noncomputable section

namespace Cert.Ffn.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The specification's output of the argument arrays, flattened to one row per token. -/
def rows (c : Dev nD) : S16384x1024.Idx → EReal :=
  shapeCast S16384x1024 (Cert.Ffn.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
    shapeCasts_S8x2048x1024_S16384x1024

/-- Row `r` of the flattened output is the output of token `(r / 2048, r % 2048)`. -/
theorem rows_apply (c : Dev nD) (r : Fin 16384) (q : Fin 1024) (b : Fin 8) (s : Fin 2048)
    (hr : r.val = b.val * 2048 + s.val) :
    rows m c (ix2 r q) = Cert.Ffn.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s q) := by
  unfold rows
  refine shapeCast_apply _ _ _ _ ?_
  show (S8x2048x1024.rowMajor (ix3 b s q)).val = (S16384x1024.rowMajor (ix2 r q)).val
  rw [Shape.rowMajor_val_three, Shape.rowMajor_val_two]
  show (b.val * 2048 + s.val) * 1024 + q.val = r.val * 1024 + q.val
  rw [hr]

/-- The printed index maps over the grid: the input and output blocks move down the rows with the point, the
    five small operands stay at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- WHAT POINT `t` WRITES BACK is block `t` of the flattened output. -/
theorem flushed_eq (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6]
  unfold out0_6
  rw [View.canon_unit_zero zero_offsets]
  simp only [View.ld_unit_zero (S := S512x1024) zero_offsets, View.ld_unit_zero (S := S1024x12) zero_offsets,
    View.ld_unit_zero (S := S12x1024) zero_offsets, View.ld_unit_zero (S := S1x12) zero_offsets,
    View.ld_unit_zero (S := S1x1024) zero_offsets]
  funext y
  obtain ⟨p, q, rfl⟩ : ∃ (p : Fin 512) (q : Fin 1024), y = ix2 p q := ⟨y 0, y 1, eq_ix2 y⟩
  show k0_pay1 (F := Ideal) (iblk m c 0 t) (iblk m c 1 t) (iblk m c 4 t) (iblk m c 2 t) (iblk m c 3 t) (iblk m c 5 t) (ix2 p q)
    = rows m c (((cfg0.win 6).blk t).view.emb (ix2 p q))
  obtain ⟨e00, e01, e10, e11, e20, e21, e30, e31, e40, e41, e50, e51, e60, e61⟩ := idx_facts t
  have ht : t.val < 32 := t.isLt
  have hp : p.val < 512 := p.isLt
  -- the row of the flattened arrays that row `p` of block `t` is, and its token
  have hrow : t.val * 512 + p.val < 16384 := by omega
  have hb : (t.val * 512 + p.val) / 2048 < 8 := by omega
  have hs : (t.val * 512 + p.val) % 2048 < 2048 := by omega
  have htok : t.val * 512 + p.val = (t.val * 512 + p.val) / 2048 * 2048 + (t.val * 512 + p.val) % 2048 := by omega
  have hemb6 : ((cfg0.win 6).blk t).view.emb (ix2 p q) = ix2 (⟨t.val * 512 + p.val, hrow⟩ : Fin 16384) q := by
    funext a; apply Fin.ext
    match a with
    | ⟨0, _⟩ => show win0_6.index t (0 : Fin 2) * 512 + 1 * p.val = t.val * 512 + p.val; omega
    | ⟨1, _⟩ => show win0_6.index t (1 : Fin 2) * 1024 + 1 * q.val = q.val; omega
  rw [hemb6, rows_apply m c ⟨t.val * 512 + p.val, hrow⟩ q ⟨_, hb⟩ ⟨_, hs⟩ htok]
  refine Cert.Ffn.Body.token_value _ _ _ _ _ _ (iblk m c 0 t) (iblk m c 1 t) (iblk m c 4 t) (iblk m c 2 t) (iblk m c 3 t)
    (iblk m c 5 t) ⟨_, hb⟩ ⟨_, hs⟩ p q ?_ ?_ ?_ ?_ ?_ ?_
  · intro k
    show V m c main_v0 (((cfg0.win 0).blk t).view.emb (ix2 p k)) = _
    have he : ((cfg0.win 0).blk t).view.emb (ix2 p k) = ix2 (⟨t.val * 512 + p.val, hrow⟩ : Fin 16384) k := by
      funext a; apply Fin.ext
      match a with
      | ⟨0, _⟩ => show win0_0.index t (0 : Fin 2) * 512 + 1 * p.val = t.val * 512 + p.val; omega
      | ⟨1, _⟩ => show win0_0.index t (1 : Fin 2) * 1024 + 1 * k.val = k.val; omega
    rw [he]
    exact Cert.Ffn.Entry.flat_x_apply m c ⟨t.val * 512 + p.val, hrow⟩ k ⟨_, hb⟩ ⟨_, hs⟩ htok
  · intro k f
    show V m c main_v1 (((cfg0.win 1).blk t).view.emb (ix2 k f)) = _
    have he : ((cfg0.win 1).blk t).view.emb (ix2 k f) = ix2 k f := by
      funext a; apply Fin.ext
      match a with
      | ⟨0, _⟩ => show win0_1.index t (0 : Fin 2) * 1024 + 1 * k.val = k.val; omega
      | ⟨1, _⟩ => show win0_1.index t (1 : Fin 2) * 12 + 1 * f.val = f.val; omega
    rw [he]
    exact Cert.Ffn.Entry.w1t_apply m c k f
  · intro f
    show V m c main_v3 (((cfg0.win 2).blk t).view.emb (ix2 (0 : Fin 1) f)) = _
    have he : ((cfg0.win 2).blk t).view.emb (ix2 (0 : Fin 1) f) = ix2 (0 : Fin 1) f := by
      funext a; apply Fin.ext
      match a with
      | ⟨0, _⟩ => show win0_2.index t (0 : Fin 2) * 1 + 1 * 0 = 0; omega
      | ⟨1, _⟩ => show win0_2.index t (1 : Fin 2) * 12 + 1 * f.val = f.val; omega
    rw [he]
    exact Cert.Ffn.Entry.b1_apply m c 0 f
  · intro f
    show V m c main_v4 (((cfg0.win 3).blk t).view.emb (ix2 (0 : Fin 1) f)) = _
    have he : ((cfg0.win 3).blk t).view.emb (ix2 (0 : Fin 1) f) = ix2 (0 : Fin 1) f := by
      funext a; apply Fin.ext
      match a with
      | ⟨0, _⟩ => show win0_3.index t (0 : Fin 2) * 1 + 1 * 0 = 0; omega
      | ⟨1, _⟩ => show win0_3.index t (1 : Fin 2) * 12 + 1 * f.val = f.val; omega
    rw [he]
    exact Cert.Ffn.Entry.theta_apply m c 0 f
  · intro f
    show V m c main_v2 (((cfg0.win 4).blk t).view.emb (ix2 f q)) = _
    have he : ((cfg0.win 4).blk t).view.emb (ix2 f q) = ix2 f q := by
      funext a; apply Fin.ext
      match a with
      | ⟨0, _⟩ => show win0_4.index t (0 : Fin 2) * 12 + 1 * f.val = f.val; omega
      | ⟨1, _⟩ => show win0_4.index t (1 : Fin 2) * 1024 + 1 * q.val = q.val; omega
    rw [he]
    exact Cert.Ffn.Entry.w2t_apply m c f q
  · show V m c main_v5 (((cfg0.win 5).blk t).view.emb (ix2 (0 : Fin 1) q)) = _
    have he : ((cfg0.win 5).blk t).view.emb (ix2 (0 : Fin 1) q) = ix2 (0 : Fin 1) q := by
      funext a; apply Fin.ext
      match a with
      | ⟨0, _⟩ => show win0_5.index t (0 : Fin 2) * 1 + 1 * 0 = 0; omega
      | ⟨1, _⟩ => show win0_5.index t (1 : Fin 2) * 1024 + 1 * q.val = q.val; omega
    rw [he]
    exact Cert.Ffn.Entry.b2_apply m c 0 q

/-- A row index is in point `t`'s output block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v6).slice (win0_6.rect t)).set ↔ _
  rw [View.set_slice_whole, Rect.mem_set_unit]
  exact Iff.rfl

/-- Every row is in the block of the point `row / 512`. -/
theorem cover (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : (i 0).val / 512 < cfg0.N := by rw [show cfg0.N = 32 from N_0]; omega
  refine ⟨⟨(i 0).val / 512, hN⟩, flush0_6 _, ?_⟩
  rw [mem_blk]
  obtain ⟨e00, e01, e10, e11, e20, e21, e30, e31, e40, e41, e50, e51, e60, e61⟩ := idx_facts ⟨(i 0).val / 512, hN⟩
  have e60' : win0_6.index ⟨(i 0).val / 512, hN⟩ (0 : Fin 2) = (i 0).val / 512 := e60
  intro a
  match a with
  | ⟨0, _⟩ =>
    show win0_6.index ⟨(i 0).val / 512, hN⟩ (0 : Fin 2) * 512 ≤ (i 0).val
      ∧ (i 0).val < win0_6.index ⟨(i 0).val / 512, hN⟩ (0 : Fin 2) * 512 + 512
    omega
  | ⟨1, _⟩ =>
    show win0_6.index ⟨(i 0).val / 512, hN⟩ (1 : Fin 2) * 1024 ≤ (i 1).val
      ∧ (i 1).val < win0_6.index ⟨(i 0).val / 512, hN⟩ (1 : Fin 2) * 1024 + 1024
    omega

/-- THE OUTPUT ARRAY after the region: the specification's output, flattened. -/
theorem final (c : Dev nD) : (dats m 0 c).arrAt 6 cfg0.N = rows m c :=
  (dats m 0 c).arrAt_eq_of_cover 6 (rows m c) (fun t _ => flushed_eq m c t) cover

end Cert.Ffn.Blocks

end
-- ==== Proof.KernelRun.lean ====
/-
  The kernel program's run, read as a value: its result array is the specification's output.

  After the region the program reshapes the flattened `[16384, 1024]` output back to `[8, 2048, 1024]`. The
  region leaves the flattened array equal to the specification's output flattened, and flattening followed by
  the reshape back is the identity (both keep the row-major order), so the result is the specification's output
  of the argument arrays; the argument arrays themselves end unchanged.
-/
import proofs.«111083_j65481071396395_2_alg».proof.Proof.Blocks
import Idealize.ShloMosaic.Lib.StableHlo.Run

noncomputable section

namespace Cert.Ffn.Kernel

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

/-- The reshape after the region undoes the flattening. -/
theorem result (c : Dev nD) :
    Pipeline.afterTail₀ cfgs (dats m) 0 (V0 m) [hostOps1] c main_v7
      = Cert.Ffn.output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have e : Pipeline.withArrays (cfgs 0).spec c (V0 m c) (fun w => (dats m 0 c).arrAt w (cfgs 0).N)
      (Proc.devRef .tc main_v6) = Cert.Ffn.Blocks.rows m c :=
    (Pipeline.withArrays_arr spec0 launch0.win.arr_inj c _ _ 6).trans (Cert.Ffn.Blocks.final m c)
  unfold Pipeline.afterTail₀
  show StableHlo.after hostOps1 _ (Proc.devRef .tc main_v7) = _
  after_results
  show shapeCast S8x2048x1024 (Pipeline.withArrays (cfgs 0).spec c (V0 m c)
      (fun w => (dats m 0 c).arrAt w (cfgs 0).N) (Proc.devRef .tc main_v6)) shapeCasts_S16384x1024_S8x2048x1024 = _
  rw [e]
  unfold Cert.Ffn.Blocks.rows
  exact shapeCast_shapeCast _ _ _

/-- Every weakly fair execution of the kernel program terminates with the result array at the specification's
    output of the argument arrays, and the argument arrays unchanged. -/
theorem run : θ_run defs (onTc (τ := τ) (main (F := Ideal))) ⟨m, fun _ => 0, ρ⟩ fun r => ∀ c : Dev nD,
      r.2.mem ((c.tc : Thread nD τ).loc main_v7) = Cert.Ffn.output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Ffn.Kernel

end
-- ==== Proof.lean ====
/-
  A two-layer feed-forward block with a cosine between the layers, tiled over tokens, against its einsum form.

  For a token `(b, s)` of `x : [8, 2048, 1024]` both programs compute
      h(b, s, f)   = cos (max (Σ_k x(b, s, k) · W1(f, k) + b1(f), 0) + θ(f))        (12 hidden units)
      out(b, s, e) = Σ_f h(b, s, f) · W2(e, f) + b2(e)                                (1024 features)
  (Proof/Spec.lean). The reference does so with two contractions over the whole arrays (Proof/RefSpec.lean). The
  kernel flattens the tokens to 16384 rows, transposes the two weights, and handles 512 rows per grid point
  with two matrix products into zero accumulators (Proof/Body.lean, Proof/Entry.lean); the 32 row blocks tile the
  flattened output (Proof/Blocks.lean), which a final reshape brings back to `[8, 2048, 1024]`
  (Proof/KernelRun.lean). On the extended reals the two are the same sums of the same products in the same
  order of factors — only the contraction index is named differently — so no law that needs finiteness is used
  and the precondition is never opened. The idealization rewrote nothing, so `preserves` is trivial.
-/
import proofs.«111083_j65481071396395_2_alg».proof.Defs
import proofs.«111083_j65481071396395_2_alg».proof.Proof.Gen.Kernel
import proofs.«111083_j65481071396395_2_alg».proof.Proof.Gen.Kernel.Skeleton
import proofs.«111083_j65481071396395_2_alg».proof.Proof.Gen.Kernel.Launch
import proofs.«111083_j65481071396395_2_alg».proof.Proof.Gen.Kernel.Points
import proofs.«111083_j65481071396395_2_alg».proof.Proof.Gen.Kernel.Frame
import proofs.«111083_j65481071396395_2_alg».proof.Proof.Gen.KernelIdeal
import proofs.«111083_j65481071396395_2_alg».proof.Proof.Gen.KernelIdeal.Skeleton
import proofs.«111083_j65481071396395_2_alg».proof.Proof.Gen.KernelIdeal.Launch
import proofs.«111083_j65481071396395_2_alg».proof.Proof.Gen.KernelIdeal.Points
import proofs.«111083_j65481071396395_2_alg».proof.Proof.Gen.KernelIdeal.Frame
import proofs.«111083_j65481071396395_2_alg».proof.Proof.Gen.ReferenceIdeal
import proofs.«111083_j65481071396395_2_alg».proof.Proof.Gen.Pre_finite_inputs
import proofs.«111083_j65481071396395_2_alg».proof.Proof.Gen.ReferenceIdeal.Run
import proofs.«111083_j65481071396395_2_alg».proof.Proof.Gen.ReferenceIdeal.Read
import proofs.«111083_j65481071396395_2_alg».proof.Proof.Spec
import proofs.«111083_j65481071396395_2_alg».proof.Proof.RefSpec
import proofs.«111083_j65481071396395_2_alg».proof.Proof.Body
import proofs.«111083_j65481071396395_2_alg».proof.Proof.Entry
import proofs.«111083_j65481071396395_2_alg».proof.Proof.Blocks
import proofs.«111083_j65481071396395_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's output of the (agreeing) argument arrays. -/
theorem algebraic : Cert.algebraic_KernelIdeal_ReferenceIdeal := by
  intro m ρ m' ρ' _ hagree
  refine ⟨fun c => Cert.Ffn.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Ffn.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.Ffn.Ref.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
